-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 51
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v32) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000, .f32⟩
  | .hbm, ⟨56, _⟩ => ⟨S50000x1, .f32⟩
  | .hbm, ⟨57, _⟩ => ⟨S_, .f32⟩
  | .hbm, ⟨58, _⟩ => ⟨S50000x1, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000, .f32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x1, .f32⟩
  | .hbm, ⟨73, _⟩ => ⟨S50000x1, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_cst : Ref sig .tc := ⟨.hbm, 51, rfl⟩
abbrev main_call0_v0 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LayerSpec.lean ====
/-
  A graph-convolution row followed by layer normalisation, on the extended reals.

  Given one row `a` of the degree-scaled neighbourhood aggregate (128 features), a weight matrix `W`, a bias `b`
  and the normalisation's scale `g` and shift `s`:

    act c  = max (∑ₖ a k · W (k, c) + b c) 0                     the rectified linear map
    mean   = (∑_c act c) / 128
    dev c  = act c − mean
    var    = (∑_c dev c · dev c) / 128
    norm c = dev c · (var + ε)^(−1/2) · g c + s c

  Every output entry of a row is a function of that row of the aggregate alone, so the layer over an array of
  rows (`layer`) is defined row by row; a block of consecutive rows of the array is then the layer of the block.
  The three float words (0, 128 and ε) are kept as words: both programs spell the same ones.
-/
import Idealize.ShloMosaic.PureOps.Ideal
import Idealize.ShloMosaic.Lib.ValueIdx

noncomputable section

namespace Cert.ConvNorm

open Idealize.ShloMosaic Idealize.ShloMosaic.ValueIdx

/-- The word of `0.0`. -/
abbrev zero : EReal := Ideal.ofBits .f32 0x00000000#32
/-- The word of `128.0`, the number of features a row's mean is taken over. -/
abbrev width : EReal := Ideal.ofBits .f32 0x43000000#32
/-- The word of the normalisation's stabiliser `ε` (the float nearest `1e-5`). -/
abbrev eps : EReal := Ideal.ofBits .f32 0x3727C5AC#32

variable (a : Fin 128 → EReal) (W : (⟨2, ![128, 128]⟩ : Shape).Idx → EReal) (b g s : Fin 128 → EReal)

/-- Feature `c` of the rectified linear map of a row. -/
def act (c : Fin 128) : EReal := max ((∑ k : Fin 128, a k * W (ix2 k c)) + b c) zero

/-- The mean of a row's 128 activations. -/
def mean : EReal := Ideal.div (∑ c : Fin 128, act a W b c) width

/-- An activation's deviation from its row's mean. -/
def dev (c : Fin 128) : EReal := act a W b c - mean a W b

/-- The (biased) variance of a row's activations. -/
def var : EReal := Ideal.div (∑ c : Fin 128, dev a W b c * dev a W b c) width

/-- Feature `c` of the normalised row, scaled and shifted. -/
def norm (c : Fin 128) : EReal := dev a W b c * Ideal.rsqrt (var a W b + eps) * g c + s c

/-- The layer over an array of `M` rows: row `r` of the result is `norm` of row `r` of the aggregate. -/
def layer {M : Nat} (A : (⟨2, ![M, 128]⟩ : Shape).Idx → EReal) : (⟨2, ![M, 128]⟩ : Shape).Idx → EReal :=
  fun i => norm (fun k => A (ix2 (i 0) k)) W b g s (i 1)

theorem layer_apply {M : Nat} (A : (⟨2, ![M, 128]⟩ : Shape).Idx → EReal) (r : Fin M) (c : Fin 128) :
    layer W b g s A (ix2 r c) = norm (fun k => A (ix2 r k)) W b g s c := rfl

end Cert.ConvNorm

end
-- ==== Proof.HostPrelude.lean ====
/-
  What the kernel's host operations leave for the region.

  Before its one region the kernel's program computes, on the host, the degree-scaled neighbourhood aggregate (out- and
  in-degrees by scatter-add of ones, their inverse square roots, the gathered source rows summed into their
  destinations, then the in-degree scaling) and reshapes the bias, the scale and the shift to [1, 128] rows.
  The aggregate is, operation for operation, the reference's own: the same composition of the same host operations
  of the same two arguments. The rows only move coordinates: entry (0, q) of a row is entry q of its argument.
-/
import proofs.«103115_j10995116277856_2_alg».proof.Proof.Gen.KernelIdeal.Frame
import proofs.«103115_j10995116277856_2_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostPrelude

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

set_option maxRecDepth 8192 in
set_option maxHeartbeats 8000000 in
/-- The array the region's first window stages is the reference's aggregate of the same features and edges. -/
theorem aggregate_eq (c : Dev nD) :
    (V m c main_v32 : S50000x128.Idx → EReal)
      = Cert.ReferenceIdeal.Read.val_main_v32 (F := Ideal) (m ((c : Thread nD τ).loc main_arg0))
          (m ((c : Thread nD τ).loc main_arg1)) := by
  dsimp only [Gen.V, Gen.hostOps0]
  after_results_simp <;> rfl

/-- A length-`b` vector viewed as a `[1, b]` row reads, at (u, j), the vector at j. -/
theorem unitRow_apply {α : Type} {b : Nat} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_one, Shape.rowMajor_val_two]
    show j.val = u.val * b + j.val
    rw [hu, Nat.zero_mul, Nat.zero_add])

set_option maxRecDepth 8192 in
set_option maxHeartbeats 8000000 in
theorem biasRow_eq (c : Dev nD) :
    (V m c main_v33 : S1x128.Idx → EReal)
      = shapeCast S1x128 (m ((c : Thread nD τ).loc main_arg3) : S128.Idx → EReal) shapeCasts_S128_S1x128 := by
  dsimp only [Gen.V, Gen.hostOps0]
  after_results_simp <;> rfl

set_option maxRecDepth 8192 in
set_option maxHeartbeats 8000000 in
theorem scaleRow_eq (c : Dev nD) :
    (V m c main_v34 : S1x128.Idx → EReal)
      = shapeCast S1x128 (m ((c : Thread nD τ).loc main_arg4) : S128.Idx → EReal) shapeCasts_S128_S1x128 := by
  dsimp only [Gen.V, Gen.hostOps0]
  after_results_simp <;> rfl

set_option maxRecDepth 8192 in
set_option maxHeartbeats 8000000 in
theorem shiftRow_eq (c : Dev nD) :
    (V m c main_v35 : S1x128.Idx → EReal)
      = shapeCast S1x128 (m ((c : Thread nD τ).loc main_arg5) : S128.Idx → EReal) shapeCasts_S128_S1x128 := by
  dsimp only [Gen.V, Gen.hostOps0]
  after_results_simp <;> rfl

/-- Entry (0, q) of the bias row the region finds is entry q of the bias. -/
theorem bias_at (c : Dev nD) (q : Fin 128) :
    (V m c main_v33 : S1x128.Idx → EReal) (ix2 (0 : Fin 1) q) = (m ((c : Thread nD τ).loc main_arg3) : S128.Idx → EReal) (ix1 q) :=
  (congrFun (biasRow_eq m c) _).trans (unitRow_apply _ _ _ _)

/-- Entry (0, q) of the scale row the region finds is entry q of the scale. -/
theorem scale_at (c : Dev nD) (q : Fin 128) :
    (V m c main_v34 : S1x128.Idx → EReal) (ix2 (0 : Fin 1) q) = (m ((c : Thread nD τ).loc main_arg4) : S128.Idx → EReal) (ix1 q) :=
  (congrFun (scaleRow_eq m c) _).trans (unitRow_apply _ _ _ _)

/-- Entry (0, q) of the shift row the region finds is entry q of the shift. -/
theorem shift_at (c : Dev nD) (q : Fin 128) :
    (V m c main_v35 : S1x128.Idx → EReal) (ix2 (0 : Fin 1) q) = (m ((c : Thread nD τ).loc main_arg5) : S128.Idx → EReal) (ix1 q) :=
  (congrFun (shiftRow_eq m c) _).trans (unitRow_apply _ _ _ _)

end Cert.KernelIdeal.HostPrelude

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.BodyValue.lean ====
/-
  The kernel body's stored value, read at one entry.

  The body stores ONE [2000, 128] vector computed from its five loaded blocks: a block `x` of 2000 rows of the
  aggregate, the weights `W`, and the bias, scale and shift as [1, 128] rows.  At the extended reals the changes of
  float format are the identity and the matrix product into a zero accumulator is a plain sum, so entry (p, q) of the
  stored vector is `ConvNorm.norm` of row `p` of `x`: it reads no other row of the block.
-/
import proofs.«103115_j10995116277856_2_alg».proof.Proof.Gen.KernelIdeal.Skeleton
import proofs.«103115_j10995116277856_2_alg».proof.Proof.LibRowOps
import proofs.«103115_j10995116277856_2_alg».proof.Proof.LayerSpec

noncomputable section

namespace Cert.KernelIdeal.BodyValue

open Cert.KernelIdeal Cert.KernelIdeal.Gen Idealize.ShloMosaic Idealize.ShloMosaic.ValueIdx Cert.RowOps Cert.ConvNorm

/-- An entrywise inverse square root reads the entry. -/
theorem rsqrt_apply {s : Shape} {φ : FTy} (x : FVec Ideal s φ) (i : s.Idx) : rsqrt x i = Ideal.rsqrt (x i) := rfl

/-- A `[1, b]` row repeated along a first axis reads, at (i, j), the row at (0, j). -/
theorem rowSpread_apply {α : Type} {a b : Nat} (x : (⟨2, ![1, b]⟩ : Shape).Idx → α)
    (h : (⟨2, ![1, b]⟩ : Shape).Broadcasts ⟨2, ![a, b]⟩) (i : Fin a) (j : Fin b) :
    broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The body's matrix product contracts the block's second axis with the weights' first, with no batch axis. -/
theorem plain : IsPlain dot_S2000x128_S128x128_S2000x128_1_0_0_1_n_n := ⟨rfl, rfl, rfl, rfl, rfl, rfl⟩

/-- A sum along the second axis of a [2000, 128] vector, started from the zero word, at row `r`: the row's sum. -/
theorem laneSum_apply (src : FVec Ideal S2000x128 .f32) (hφ : FTy.f32 = FTy.f32 ∨ FTy.f32 = FTy.bf16)
    (hacc : (0x00000000#32 : BitVec 32) = 0x00000000#32) (r : Fin 2000) :
    multiReduction .add [1] S2000 src 0x00000000#32 reduces_S2000x128_S2000 hφ hacc (ix1 r) = ∑ k : Fin 128, src (ix2 r k) :=
  rowSum_apply src 0x00000000#32 reduces_S2000x128_S2000 hφ hacc r

/-- Entry (p, q) of the stored vector is the normalised, rectified linear map of row `p` of the block. The two means
    are read in turn: each row sum is first exposed at row `p`, then its summands are read entry by entry. -/
theorem pay_apply (x0 : Vec Ideal S2000x128 .f32) (x1 : Vec Ideal S128x128 .f32) (x2 x3 x4 : Vec Ideal S1x128 .f32)
    (p : Fin 2000) (q : Fin 128) :
    k0_pay1 (F := Ideal) x0 x1 x2 x3 x4 (ix2 p q)
      = norm (fun k => x0 (ix2 p k)) x1 (fun c => x2 (ix2 (0 : Fin 1) c)) (fun c => x3 (ix2 (0 : Fin 1) c))
          (fun c => x4 (ix2 (0 : Fin 1) c)) q := by
  unfold k0_pay1
  simp only [addf_apply, mulf_apply, subf_apply, maximumf_apply, divf_apply, broadcast_apply, truncf_apply, rsqrt_apply,
    spread_apply, rowSpread_apply, column_apply, matmul_zero_apply plain, shapeCast_self, Ideal.ofBits_def]
  rw [laneSum_apply, laneSum_apply]
  simp only [addf_apply, mulf_apply, subf_apply, maximumf_apply, divf_apply, broadcast_apply, truncf_apply, rsqrt_apply,
    spread_apply, rowSpread_apply, column_apply, matmul_zero_apply plain, shapeCast_self, Ideal.ofBits_def]
  rw [laneSum_apply]
  simp only [addf_apply, mulf_apply, subf_apply, maximumf_apply, divf_apply, broadcast_apply, truncf_apply, rsqrt_apply,
    spread_apply, rowSpread_apply, column_apply, matmul_zero_apply plain, shapeCast_self, Ideal.ofBits_def]
  rfl

end Cert.KernelIdeal.BodyValue

end
-- ==== Proof.ArrayValue.lean ====
/-
  The kernel's result array as one function of the arrays the region finds.

  The region runs 25 grid points. Point `t` stages rows 2000·t … 2000·t + 1999 of the aggregate (all 128 columns), the
  whole weight matrix and the three [1, 128] rows, and writes back the same rows of the result. Every entry the body
  stores depends on one row of its block only, so what point `t` writes back is block `t` of ONE whole-array function
  (`result`: `ConvNorm.layer` of the aggregate); the 25 blocks cover the array (row `r` lies in block `r / 2000`), hence
  the array after the run is that function.
-/
import proofs.«103115_j10995116277856_2_alg».proof.Proof.Gen.KernelIdeal.Value
import proofs.«103115_j10995116277856_2_alg».proof.Proof.BodyValue
import proofs.«103115_j10995116277856_2_alg».proof.Proof.HostPrelude
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.ConvNorm Cert.KernelIdeal.BodyValue Cert.KernelIdeal.HostPrelude
open Idealize.ShloMosaic.Pipeline (Dat)

variable (m : (ℓ : Loc nD τ sig) → Buf (Elt Ideal) ℓ) (ρ : Dev nD → PrngReg)

/-- The result array: the layer of the aggregate the region finds, with the weights, bias, scale and shift as launched. -/
abbrev result (c : Dev nD) : S50000x128.Idx → EReal :=
  layer (M := 50000) (m ((c : Thread nD τ).loc main_arg2) : S128x128.Idx → EReal)
    (fun q => (m ((c : Thread nD τ).loc main_arg3) : S128.Idx → EReal) (ix1 q))
    (fun q => (m ((c : Thread nD τ).loc main_arg4) : S128.Idx → EReal) (ix1 q))
    (fun q => (m ((c : Thread nD τ).loc main_arg5) : S128.Idx → EReal) (ix1 q))
    (V m c main_v32 : S50000x128.Idx → EReal)

theorem zeroOffsets : (![0, 0] : Fin 2 → Nat) = fun _ => 0 := funext fun a => by fin_cases a <;> rfl

/-- An entry the body stores, against the layer of a taller array: when row `y 0` of the block is row `i 0` of the
    array, the other blocks are the weights and the rows' entries, and the column is the same. -/
theorem entry_of_rows {M : Nat} (A : (⟨2, ![M, 128]⟩ : Shape).Idx → EReal) (W : (⟨2, ![128, 128]⟩ : Shape).Idx → EReal)
    (b g s : Fin 128 → EReal)
    (x0 : Vec Ideal S2000x128 .f32) (x1 : Vec Ideal S128x128 .f32) (x2 x3 x4 : Vec Ideal S1x128 .f32)
    (y : S2000x128.Idx) (i : (⟨2, ![M, 128]⟩ : Shape).Idx)
    (h0 : ∀ k : Fin 128, x0 (ix2 (y 0) k) = A (ix2 (i 0) k)) (h1 : x1 = W)
    (h2 : ∀ q : Fin 128, x2 (ix2 (0 : Fin 1) q) = b q) (h3 : ∀ q : Fin 128, x3 (ix2 (0 : Fin 1) q) = g q)
    (h4 : ∀ q : Fin 128, x4 (ix2 (0 : Fin 1) q) = s q) (hc : y 1 = i 1) :
    k0_pay1 (F := Ideal) x0 x1 x2 x3 x4 y = layer W b g s A i := by
  obtain ⟨p, q, rfl⟩ : ∃ (p : Fin 2000) (q : Fin 128), y = ix2 p q := ⟨y 0, y 1, eq_ix2 y⟩
  have hc' : q = i 1 := hc
  have h0' : (fun k => x0 (ix2 p k)) = fun k => A (ix2 (i 0) k) := funext h0
  rw [pay_apply, h0', h1, funext h2, funext h3, funext h4, hc']
  rfl

/-- The printed index maps, decided over the 25 points: the aggregate's window moves with the result's along the rows,
    every other block index is 0. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every block of rows is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- Reading window 0's block at point `t` off ANY contents of its array: the contents under the block's embedding. -/
theorem read_rows (t : Fin cfg0.N) (X : ((cfg0.win 0).blk t).view.ty.Contents (Elt Ideal)) (x : S2000x128.Idx) :
    ((cfg0.win 0).blk t).view.read (Elt Ideal) X x = X (((cfg0.win 0).blk t).view.emb x) := rfl

/-- Reading the result window's block at point `t` off ANY contents of its array, likewise. -/
theorem read_block (t : Fin cfg0.N) (X : ((cfg0.win 5).blk t).view.ty.Contents (Elt Ideal))
    (y : ((win0 5).xblock (grid0.coords t)).Idx) :
    ((cfg0.win 5).blk t).view.read (Elt Ideal) X y = X (((cfg0.win 5).blk t).view.emb y) := rfl

/-- What point `t` writes back is block `t` of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zeroOffsets]
  simp only [View.ld_unit_zero (S := S2000x128) zeroOffsets, View.ld_unit_zero (S := S128x128) zeroOffsets,
    View.ld_unit_zero (S := S1x128) zeroOffsets]
  obtain ⟨e00, e01, e10, e11, e20, e21, e30, e31, e40, e41, e51⟩ := idx_facts t
  funext y
  show k0_pay1 (F := Ideal) (iblk m c 0 t) (iblk m c 1 t) (iblk m c 2 t) (iblk m c 3 t) (iblk m c 4 t)
      ((win0 5).xinj (grid0.coords t) y) = _
  refine (entry_of_rows (V m c main_v32 : S50000x128.Idx → EReal)
    (m ((c : Thread nD τ).loc main_arg2) : S128x128.Idx → EReal)
    (fun q => (m ((c : Thread nD τ).loc main_arg3) : S128.Idx → EReal) (ix1 q))
    (fun q => (m ((c : Thread nD τ).loc main_arg4) : S128.Idx → EReal) (ix1 q))
    (fun q => (m ((c : Thread nD τ).loc main_arg5) : S128.Idx → EReal) (ix1 q))
    (iblk m c 0 t) (iblk m c 1 t) (iblk m c 2 t) (iblk m c 3 t) (iblk m c 4 t)
    ((win0 5).xinj (grid0.coords t) y) (((cfg0.win 5).blk t).view.emb y)
    (fun k => ?_) ?_ (fun q => ?_) (fun q => ?_) (fun q => ?_) ?_).trans ?_
  · unfold iblk
    rw [read_rows]
    refine congrArg (V m c main_v32) (funext fun a => Fin.ext ?_)
    match a with
    | ⟨0, _⟩ =>
      show win0_0.index t (0 : Fin 2) * 2000 + 1 * (y 0).val = win0_5.index t (0 : Fin 2) * 2000 + 1 * (y 0).val
      omega
    | ⟨1, _⟩ =>
      show win0_0.index t (1 : Fin 2) * 128 + 1 * k.val = k.val
      omega
  · funext j
    show V m c main_arg2 (((cfg0.win 1).blk t).view.emb j) = m ((c : Thread nD τ).loc main_arg2) j
    rw [V_main_arg2 m c]
    refine congrArg (m ((c : Thread nD τ).loc main_arg2)) (funext fun a => Fin.ext ?_)
    match a with
    | ⟨0, _⟩ =>
      show win0_1.index t (0 : Fin 2) * 128 + 1 * (j 0).val = (j 0).val
      omega
    | ⟨1, _⟩ =>
      show win0_1.index t (1 : Fin 2) * 128 + 1 * (j 1).val = (j 1).val
      omega
  · have e : ((cfg0.win 2).blk t).view.emb (ix2 (0 : Fin 1) q) = ix2 (0 : Fin 1) q := funext fun a => Fin.ext (by
      match a with
      | ⟨0, _⟩ => show win0_2.index t (0 : Fin 2) * 1 + 1 * 0 = 0; omega
      | ⟨1, _⟩ => show win0_2.index t (1 : Fin 2) * 128 + 1 * q.val = q.val; omega)
    show V m c main_v33 (((cfg0.win 2).blk t).view.emb (ix2 (0 : Fin 1) q)) = _
    rw [e]
    exact bias_at m c q
  · have e : ((cfg0.win 3).blk t).view.emb (ix2 (0 : Fin 1) q) = ix2 (0 : Fin 1) q := funext fun a => Fin.ext (by
      match a with
      | ⟨0, _⟩ => show win0_3.index t (0 : Fin 2) * 1 + 1 * 0 = 0; omega
      | ⟨1, _⟩ => show win0_3.index t (1 : Fin 2) * 128 + 1 * q.val = q.val; omega)
    show V m c main_v34 (((cfg0.win 3).blk t).view.emb (ix2 (0 : Fin 1) q)) = _
    rw [e]
    exact scale_at m c q
  · have e : ((cfg0.win 4).blk t).view.emb (ix2 (0 : Fin 1) q) = ix2 (0 : Fin 1) q := funext fun a => Fin.ext (by
      match a with
      | ⟨0, _⟩ => show win0_4.index t (0 : Fin 2) * 1 + 1 * 0 = 0; omega
      | ⟨1, _⟩ => show win0_4.index t (1 : Fin 2) * 128 + 1 * q.val = q.val; omega)
    show V m c main_v35 (((cfg0.win 4).blk t).view.emb (ix2 (0 : Fin 1) q)) = _
    rw [e]
    exact shift_at m c q
  · exact Fin.ext (show (y 1).val = win0_5.index t (1 : Fin 2) * 128 + 1 * (y 1).val by omega)
  · exact (read_block t (result m c) y).symm

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v36).slice (win0_5.rect t)).set ↔ _
  rw [View.set_slice_whole, Rect.mem_set_unit]
  exact Iff.rfl

/-- Every index of the array lies in the block of the point that owns its row. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- The array after the run. -/
theorem final (c : Dev nD) : (dats m 0 c).arrAt 5 cfg0.N = result m c :=
  (dats m 0 c).arrAt_eq_of_cover 5 (result m c) (fun t _ => flushed_eq m c t) cover

/-- The kernel's run with its result array named: `result`, the arguments unchanged. -/
theorem run : θ_run defs (onTc (τ := τ) (main (F := Ideal))) ⟨m, fun _ => 0, ρ⟩ fun r => ∀ c : Dev nD,
      r.2.mem ((c : Thread nD τ).loc main_v36) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ArrayValue

end
-- ==== Proof.RefValue.lean ====
/-
  The reference's result, read at one entry.

  After the shared neighbourhood aggregate (kept whole here, as `val_main_v32`), the reference multiplies by the
  weights on the host, adds the bias, rectifies, and normalises each row: a mean and a variance over the 128 features
  (each a host sum from zero divided by 128), an inverse square root of the variance plus ε, the scale and the shift.
  Stage by stage, at row `r` and feature `c`, these are `ConvNorm`'s `act`, `mean`, `dev`, `var` and `norm` of row
  `r` of the aggregate; the host's quotient and inverse square root are the extended reals' own.
-/
import proofs.«103115_j10995116277856_2_alg».proof.Proof.Gen.ReferenceIdeal.Read
import proofs.«103115_j10995116277856_2_alg».proof.Proof.LayerSpec

noncomputable section

namespace Cert.ReferenceIdeal.RefValue

open Cert.ReferenceIdeal Cert.ReferenceIdeal.Read Idealize.ShloMosaic Idealize.ShloMosaic.ValueIdx Cert.ConvNorm

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 x4 x5 : (⟨S128, .f32⟩ : BufTy).Contents (Elt Ideal))

/-- Row `r` of the degree-scaled aggregate. -/
abbrev aggRow (r : Fin 50000) : Fin 128 → EReal := fun k => val_main_v32 (F := Ideal) x0 x1 (ix2 r k)

/-- A length-128 argument array as a function of the feature. -/
abbrev vec (x : (⟨S128, .f32⟩ : BufTy).Contents (Elt Ideal)) : Fin 128 → EReal := fun c => x (ix1 c)

/-- The rectified linear map: the host product's entry is the sum over the shared axis, the bias is read at the feature. -/
theorem act_eq (r : Fin 50000) (c : Fin 128) :
    val_main_v37 (F := Ideal) x0 x1 x2 x3 (ix2 r c) = act (aggRow x0 x1 r) x2 (vec x3) c := by
  rw [val_main_v37_apply, val_main_v36_apply, val_main_v33_apply, val_main_v35_apply, val_main_v34_apply,
    val_main_call0_v0_apply, val_main_call0_cst_apply]
  simp only [Ideal.maximumf_def, Ideal.addf_def, Ideal.ofBits_def]
  unfold act
  refine congrArg₂ max (congrArg₂ (· + ·) (Finset.sum_congr rfl fun k _ => ?_) ?_) rfl
  · have e1 : lidx_main_v33 (ix2 r c) k = ix2 r k :=
      funext fun a => Fin.ext (by match a with | ⟨0, _⟩ => rfl | ⟨1, _⟩ => rfl)
    have e2 : ridx_main_v33 (ix2 r c) k = ix2 k c :=
      funext fun a => Fin.ext (by match a with | ⟨0, _⟩ => rfl | ⟨1, _⟩ => rfl)
    rw [e1, e2]
  · exact congrArg x3 (funext fun a => Fin.ext (by match a with | ⟨0, _⟩ => rfl))

/-- The row's mean: the host sum starts from the zero word, which is 0. -/
theorem mean_eq (r : Fin 50000) :
    val_main_v41 (F := Ideal) x0 x1 x2 x3 (ix2 r (0 : Fin 1)) = mean (aggRow x0 x1 r) x2 (vec x3) := by
  rw [val_main_v41_apply, val_main_v39_apply, val_main_v38_apply, val_main_v40_apply, val_main_cst_7_apply,
    val_main_cst_6_apply]
  simp only [Ideal.hostDivf_def, Ideal.ofBits_def]
  unfold mean
  refine congrArg (Ideal.div · width) ?_
  rw [Ideal.ofBits_zero_f32, zero_add]
  refine Finset.sum_congr rfl fun k _ => ?_
  have e : idx_main_v38 (idx_main_v39 (ix2 r (0 : Fin 1))) k = ix2 r k :=
    funext fun a => Fin.ext (by match a with | ⟨0, _⟩ => rfl | ⟨1, _⟩ => rfl)
  rw [e]
  exact act_eq x0 x1 x2 x3 r k

/-- An activation's deviation from its row's mean (the copy the variance is taken of). -/
theorem dev_eq (r : Fin 50000) (c : Fin 128) :
    val_main_v43 (F := Ideal) x0 x1 x2 x3 (ix2 r c) = dev (aggRow x0 x1 r) x2 (vec x3) c := by
  have e : idx_main_v42 (ix2 r c) = ix2 r (0 : Fin 1) :=
    funext fun a => Fin.ext (by match a with | ⟨0, _⟩ => rfl | ⟨1, _⟩ => rfl)
  rw [val_main_v43_apply, val_main_v42_apply, e, mean_eq, act_eq]
  rfl

/-- The same deviation, as the reference computes it a second time for the normalised entry. -/
theorem dev_eq' (r : Fin 50000) (c : Fin 128) :
    val_main_v50 (F := Ideal) x0 x1 x2 x3 (ix2 r c) = dev (aggRow x0 x1 r) x2 (vec x3) c := by
  have e : idx_main_v49 (ix2 r c) = ix2 r (0 : Fin 1) :=
    funext fun a => Fin.ext (by match a with | ⟨0, _⟩ => rfl | ⟨1, _⟩ => rfl)
  rw [val_main_v50_apply, val_main_v49_apply, e, mean_eq, act_eq]
  rfl

/-- The row's variance: the mean of the squared deviations. -/
theorem var_eq (r : Fin 50000) :
    val_main_v48 (F := Ideal) x0 x1 x2 x3 (ix2 r (0 : Fin 1)) = var (aggRow x0 x1 r) x2 (vec x3) := by
  rw [val_main_v48_apply, val_main_v46_apply, val_main_v45_apply, val_main_v47_apply, val_main_cst_9_apply,
    val_main_cst_8_apply]
  simp only [Ideal.hostDivf_def, Ideal.ofBits_def]
  unfold var
  refine congrArg (Ideal.div · width) ?_
  rw [Ideal.ofBits_zero_f32, zero_add]
  refine Finset.sum_congr rfl fun k _ => ?_
  have e : idx_main_v45 (idx_main_v46 (ix2 r (0 : Fin 1))) k = ix2 r k :=
    funext fun a => Fin.ext (by match a with | ⟨0, _⟩ => rfl | ⟨1, _⟩ => rfl)
  rw [e, val_main_v44_apply, dev_eq]
  rfl

/-- The normalised, scaled and shifted entry. -/
theorem norm_eq (r : Fin 50000) (c : Fin 128) :
    val_main_v61 (F := Ideal) x0 x1 x2 x3 x4 x5 (ix2 r c)
      = norm (aggRow x0 x1 r) x2 (vec x3) (vec x4) (vec x5) c := by
  have e54 : idx_main_v54 (ix2 r c) = ix2 r (0 : Fin 1) :=
    funext fun a => Fin.ext (by match a with | ⟨0, _⟩ => rfl | ⟨1, _⟩ => rfl)
  have e4 : idx_main_v56 (idx_main_v57 (ix2 r c)) = ix1 c :=
    funext fun a => Fin.ext (by match a with | ⟨0, _⟩ => rfl)
  have e5 : idx_main_v59 (idx_main_v60 (ix2 r c)) = ix1 c :=
    funext fun a => Fin.ext (by match a with | ⟨0, _⟩ => rfl)
  rw [val_main_v61_apply, val_main_v58_apply, val_main_v55_apply, val_main_v54_apply, val_main_v53_apply,
    val_main_v52_apply, val_main_v51_apply, val_main_cst_10_apply, val_main_v57_apply, val_main_v56_apply,
    val_main_v60_apply, val_main_v59_apply, e54, e4, e5, var_eq, dev_eq']
  rfl

/-- The reference's result array is the layer of the aggregate, row by row. -/
theorem result_eq :
    val_main_v61 (F := Ideal) x0 x1 x2 x3 x4 x5
      = layer x2 (vec x3) (vec x4) (vec x5) (M := 50000) (val_main_v32 (F := Ideal) x0 x1) := by
  funext i
  obtain ⟨r, c, rfl⟩ : ∃ (r : Fin 50000) (c : Fin 128), i = ix2 r c := ⟨i 0, i 1, eq_ix2 i⟩
  exact norm_eq x0 x1 x2 x3 x4 x5 r c

end Cert.ReferenceIdeal.RefValue

end
-- ==== Proof.lean ====
/-
  A graph-convolution layer with layer normalisation: the tiled kernel against the plain reference.

  Both programs first form, on the host and by the same operations, the degree-scaled neighbourhood aggregate
  A = D_in^(−1/2) · Adjᵀ · (D_out^(−1/2) · X): degrees by scatter-add of ones (at least 1), the source rows gathered
  and summed into their destination rows. The reference then computes, over the whole [50000, 128] array,

      x = max (A·W + b) 0,   μ = mean_c x,   σ² = mean_c (x − μ)²,   out = (x − μ) · (σ² + ε)^(−1/2) · γ + β,

  and the kernel computes the same thing 2000 rows at a time on a grid of 25 points, the product on the matrix unit
  from operands narrowed to a shorter float format. On the extended reals a change of format is the identity and a
  product into a zero accumulator is a plain sum, and every entry of a row of `out` depends on that row of A alone;
  so each point writes back its block of ONE whole-array function, the blocks cover the array, and the two results are
  the same function (`ConvNorm.layer`) of the same aggregate. No algebraic law beyond that is used, so the inputs'
  finiteness is never opened. The idealised kernel is the kernel's own text read at the extended reals (no rewrite
  was applied), so there is nothing to preserve beyond that.

  Modules: `LayerSpec` (the function), `BodyValue` (an entry the kernel body stores), `HostPrelude` (the aggregate and
  the reshaped rows the region finds), `ArrayValue` (blocks to the whole array, and the kernel's run),
  `RefValue` (the reference's result entry by entry), `LibRowOps` (rank-2 vector operations read at an index).
-/
import proofs.«103115_j10995116277856_2_alg».proof.Defs
import proofs.«103115_j10995116277856_2_alg».proof.Proof.Gen.Kernel
import proofs.«103115_j10995116277856_2_alg».proof.Proof.Gen.Kernel.Skeleton
import proofs.«103115_j10995116277856_2_alg».proof.Proof.Gen.Kernel.Launch
import proofs.«103115_j10995116277856_2_alg».proof.Proof.Gen.Kernel.Points
import proofs.«103115_j10995116277856_2_alg».proof.Proof.Gen.Kernel.Frame
import proofs.«103115_j10995116277856_2_alg».proof.Proof.Gen.KernelIdeal
import proofs.«103115_j10995116277856_2_alg».proof.Proof.Gen.KernelIdeal.Skeleton
import proofs.«103115_j10995116277856_2_alg».proof.Proof.Gen.KernelIdeal.Launch
import proofs.«103115_j10995116277856_2_alg».proof.Proof.Gen.KernelIdeal.Points
import proofs.«103115_j10995116277856_2_alg».proof.Proof.Gen.KernelIdeal.Frame
import proofs.«103115_j10995116277856_2_alg».proof.Proof.Gen.KernelIdeal.Value
import proofs.«103115_j10995116277856_2_alg».proof.Proof.Gen.ReferenceIdeal
import proofs.«103115_j10995116277856_2_alg».proof.Proof.Gen.ReferenceIdeal.Run
import proofs.«103115_j10995116277856_2_alg».proof.Proof.Gen.ReferenceIdeal.Read
import proofs.«103115_j10995116277856_2_alg».proof.Proof.Gen.Pre_finite_inputs
import proofs.«103115_j10995116277856_2_alg».proof.Proof.LayerSpec
import proofs.«103115_j10995116277856_2_alg».proof.Proof.HostPrelude
import proofs.«103115_j10995116277856_2_alg».proof.Proof.ArrayValue
import proofs.«103115_j10995116277856_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments, both programs end with the layer of the shared aggregate. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v61_eq, Cert.ReferenceIdeal.RefValue.result_eq, a0, a1, a2, a3, a4, a5,
    ← Cert.KernelIdeal.HostPrelude.aggregate_eq m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
